-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S1024x8x512 : Shape := ⟨3, ![1024, 8, 512]⟩
abbrev S1024x512 : Shape := ⟨2, ![1024, 512]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1024x8x512 : S_.BroadcastsInDim S1024x8x512 (![] : Fin 0 → Fin S1024x8x512.rank)
  reducesTo_S1024x8x512_S_d0_1_2 : S1024x8x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4096x512 .f32) (main_arg1 : FVec F S1024x8x512 .f32) (main_arg2 : FVec F S1024x512 .f32) (main_arg3 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1024x8x512 .f32 := Host.absf main_arg1
  let main_cst_0 : FVec F S_ .f32 := constant S_ .f32 0x7F800000#32
  let main_v5 : FVec F S1024x8x512 .f32 := broadcastInDim S1024x8x512 ![] bcast_S_S1024x8x512 main_cst_0
  let main_v6 : IVec S1024x8x512 1 := cmpf .olt main_v4 main_v5
  let main_c_1 : IVec S_ 1 := constantI S_ 1 1#1
  let main_v7 : IVec S_ 1 := (fun x v => Host.reduce IntOp.andi x v reducesTo_S1024x8x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4096x512 : Shape := ⟨2, ![4096, 512]⟩
abbrev S1024x8x512 : Shape := ⟨3, ![1024, 8, 512]⟩
abbrev S1024x512 : Shape := ⟨2, ![1024, 512]⟩
abbrev S1024 : Shape := ⟨1, ![1024]⟩
abbrev S1024x1 : Shape := ⟨2, ![1024, 1]⟩
abbrev S4096x1024 : Shape := ⟨2, ![4096, 1024]⟩
abbrev S512x512 : Shape := ⟨2, ![512, 512]⟩
abbrev S256x8x512 : Shape := ⟨3, ![256, 8, 512]⟩
abbrev S256x512 : Shape := ⟨2, ![256, 512]⟩
abbrev S256x1 : Shape := ⟨2, ![256, 1]⟩
abbrev S512x256 : Shape := ⟨2, ![512, 256]⟩
abbrev S256x1x512 : Shape := ⟨3, ![256, 1, 512]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S1024x8x512, .f32⟩
  | .hbm, ⟨2, _⟩ => ⟨S1024x512, .f32⟩
  | .hbm, ⟨3, _⟩ => ⟨S1024, .f32⟩
  | .hbm, ⟨4, _⟩ => ⟨S1024x1, .f32⟩
  | .hbm, ⟨5, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S256x8x512, .f32⟩
  | .local _ .vmem, ⟨3, _⟩ => ⟨S256x8x512, .f32⟩
  | .local _ .vmem, ⟨4, _⟩ => ⟨S256x512, .f32⟩
  | .local _ .vmem, ⟨5, _⟩ => ⟨S256x512, .f32⟩
  | .local _ .vmem, ⟨6, _⟩ => ⟨S256x1, .f32⟩
  | .local _ .vmem, ⟨7, _⟩ => ⟨S256x1, .f32⟩
  | .local _ .vmem, ⟨8, _⟩ => ⟨S512x256, .f32⟩
  | .local _ .vmem, ⟨9, _⟩ => ⟨S512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024_S1024x1 : S1024.ShapeCasts S1024x1
  inb_S512x512_S512x512_0_0 : ∀ a, (![0, 0] : Fin 2 → Nat) a + S512x512.size a ≤ S512x512.size a
  h_S512x512 : 0 < S512x512.numel
  inb_S256x8x512_S256x8x512_0_0_0 : ∀ a, (![0, 0, 0] : Fin 3 → Nat) a + S256x8x512.size a ≤ S256x8x512.size a
  h_S256x8x512 : 0 < S256x8x512.numel
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  bitsLt_bf16_f32 : FTy.bits .bf16 < FTy.bits .f32
  slices_S256x8x512_o0_0_0_S256x1x512 : S256x8x512.Slices ![0, 0, 0] S256x1x512
  shapeCasts_S256x1x512_S256x512 : S256x1x512.ShapeCasts S256x512
  transposes_S256x512_p1_0_S512x256 : S256x512.Transposes [1, 0] S512x256
  slices_S256x8x512_o0_1_0_S256x1x512 : S256x8x512.Slices ![0, 1, 0] S256x1x512
  slices_S256x8x512_o0_2_0_S256x1x512 : S256x8x512.Slices ![0, 2, 0] S256x1x512
  slices_S256x8x512_o0_3_0_S256x1x512 : S256x8x512.Slices ![0, 3, 0] S256x1x512
  slices_S256x8x512_o0_4_0_S256x1x512 : S256x8x512.Slices ![0, 4, 0] S256x1x512
  slices_S256x8x512_o0_5_0_S256x1x512 : S256x8x512.Slices ![0, 5, 0] S256x1x512
  slices_S256x8x512_o0_6_0_S256x1x512 : S256x8x512.Slices ![0, 6, 0] S256x1x512
  slices_S256x8x512_o0_7_0_S256x1x512 : S256x8x512.Slices ![0, 7, 0] S256x1x512
  shapeCasts_S256x1_S1x256 : S256x1.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8x512.size a ≤ S1024x8x512.size a
  hwx0_1 : ∀ i : grid0.Coords, EltTy.bits .f32 = 32 ∨ (Rect.block (s := S1024x8x512) S256x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S1024x512.size a
  hwx0_2 : ∀ i : grid0.Coords, EltTy.bits .f32 = 32 ∨ (Rect.block (s := S1024x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S1024x1.size a
  hwx0_3 : ∀ i : grid0.Coords, EltTy.bits .f32 = 32 ∨ (Rect.block (s := S1024x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x1024.size a
  hwx0_4 : ∀ i : grid0.Coords, EltTy.bits .f32 = 32 ∨ (Rect.block (s := S4096x1024) S512x256.size (cc0_transform_4 i) (hinb0_4 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S1024x8x512 : Shape := ⟨3, ![1024, 8, 512]⟩
abbrev S1024x512 : Shape := ⟨2, ![1024, 512]⟩
abbrev S1024 : Shape := ⟨1, ![1024]⟩
abbrev S4096x1024x8 : Shape := ⟨3, ![4096, 1024, 8]⟩
abbrev S_ : Shape := ⟨0, ![]⟩
abbrev S4096x1024 : Shape := ⟨2, ![4096, 1024]⟩
abbrev S512x1024 : Shape := ⟨2, ![512, 1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1024x8x512, .f32⟩
  | .hbm, ⟨2, _⟩ => ⟨S1024x512, .f32⟩
  | .hbm, ⟨3, _⟩ => ⟨S1024, .f32⟩
  | .hbm, ⟨4, _⟩ => ⟨S4096x1024x8, .f32⟩
  | .hbm, ⟨5, _⟩ => ⟨S4096x512, .f32⟩
  | .hbm, ⟨6, _⟩ => ⟨S1024x8x512, .f32⟩
  | .hbm, ⟨7, _⟩ => ⟨S4096x1024x8, .f32⟩
  | .hbm, ⟨8, _⟩ => ⟨S4096x1024x8, .f32⟩
  | .hbm, ⟨9, _⟩ => ⟨S4096x1024x8, .f32⟩
  | .hbm, ⟨10, _⟩ => ⟨S_, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S512x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x1024x8_S4096x1024_d2 : S4096x1024x8.ReducesTo [2] S4096x1024
  h_S_ : 0 < S_.numel
  bcast_S_S4096x1024 : S_.BroadcastsInDim S4096x1024 (![] : Fin 0 → Fin S4096x1024.rank)
  transposes_S1024x512_S512x1024_1_0 : S1024x512.Transposes [1, 0] S512x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x512_S1024x8x512_S4096x1024x8_1_2_0_01_n_n_wf : DotDims.WF S4096x512 S1024x8x512 S4096x1024x8 [1] [2] [0] [0, 1] [] []
  dot_S4096x512_S512x1024_S4096x1024_1_0_0_1_n_n_wf : DotDims.WF S4096x512 S512x1024 S4096x1024 [1] [0] [0] [1] [] []

variable [Facts₀]

def dot_S4096x512_S1024x8x512_S4096x1024x8_1_2_0_01_n_n : DotDims S4096x512 S1024x8x512 S4096x1024x8 where
  lhsContracting := [1]
  rhsContracting := [2]
  lhsNonContracting := [0]
  rhsNonContracting := [0, 1]
  lhsBatch := []
  rhsBatch := []
  wf := dot_S4096x512_S1024x8x512_S4096x1024x8_1_2_0_01_n_n_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf

class Facts : Prop extends Facts₀ where

variable [Facts]
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibFlat.lean ====
/-
  A kept unit axis in the middle flattened away: an [a, 1, c] array cast to [a, c], read at an index
  written by coordinates. Both indices have the same row-major position, a-coordinate times c plus
  c-coordinate.
-/
import Idealize.ShloMosaic.Lib.Pipeline.Value
import Idealize.ShloMosaic.Lib.ValueIdx

namespace Cert.LibFlat

open Idealize.ShloMosaic Idealize.ShloMosaic.ValueIdx

variable {α : Type}

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

end Cert.LibFlat
-- ==== Proof.LibRowOfColumn.lean ====
/-
  A column laid out as a row: an [a, 1] array cast to [1, a], read at an index written by coordinates. Both
  indices have the same row-major position, the a-coordinate.
-/
import Idealize.ShloMosaic.Lib.Pipeline.Value
import Idealize.ShloMosaic.Lib.ValueIdx

namespace Cert.LibRowOfColumn

open Idealize.ShloMosaic Idealize.ShloMosaic.ValueIdx

variable {α : Type}

/-- An `[a, 1]` array cast to `[1, a]` reads, at `(0, q)`, the operand at `(q, 0)`. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    rw [Nat.mul_one, Nat.add_zero, Nat.zero_mul, Nat.zero_add])

/-- An `[a]` array cast to `[a, 1]` reads, at `(q, 0)`, the operand at `q`. -/
theorem shapeCast_a_a1_apply {a : ℕ} (x : (⟨1, ![a]⟩ : Shape).Idx → α)
    (h : (⟨1, ![a]⟩ : Shape).ShapeCasts ⟨2, ![a, 1]⟩) (q : Fin a) :
    shapeCast ⟨2, ![a, 1]⟩ x h (ix2 q (0 : Fin 1)) = x (ix1 q) :=
  shapeCast_apply x h _ _ (by
    rw [Shape.rowMajor_val_two, Shape.rowMajor_val_one]
    show q.val = q.val * 1 + 0
    rw [Nat.mul_one, Nat.add_zero])

end Cert.LibRowOfColumn
-- ==== Proof.Form.lean ====
/-
  The factorized layer at one (row, unit) pair, as a function of the row of inputs, the unit's eight rows of factor
  weights, its row of linear weights and its bias — on the extended reals, with no array in sight:

      value = h · (z + Σ_l ((Σ_k x_k β_{l,k})² − Σ_k x_k² β_{l,k}²)) + (Σ_k x_k w_k + bias).

  The same value with the eight factors added one after the other onto `z`, and the bias added last, differs only
  in how the additions are grouped; addition on the extended reals is associative, so the two agree whatever
  the entries are (no finiteness is needed: no product is distributed over a sum).
-/
import Idealize.ShloMosaic.PureOps.Ideal
import Mathlib.Algebra.BigOperators.Fin

noncomputable section

namespace Cert.Factorized

/-- One factor's contribution: the square of the inner product of the inputs with the factor's weights, less the
    inner product of their squares. -/
def interaction (xs bs : Fin 512 → EReal) : EReal :=
  (∑ k, xs k * bs k) * (∑ k, xs k * bs k) - ∑ k, (xs k * xs k) * (bs k * bs k)

/-- The layer's value: `h` times the eight contributions summed from `z`, plus the linear part with its bias. -/
def value (z h : EReal) (xs : Fin 512 → EReal) (bs : Fin 8 → Fin 512 → EReal) (ws : Fin 512 → EReal) (bias : EReal) :
    EReal :=
  h * (z + ∑ l, interaction xs (bs l)) + ((∑ k, xs k * ws k) + bias)

/-- Adding the eight contributions one at a time onto `z`, then the linear part, then the bias, is the value:
    only the grouping of the additions differs. -/
theorem value_of_running_sum (z h : EReal) (xs : Fin 512 → EReal) (bs : Fin 8 → Fin 512 → EReal)
    (ws : Fin 512 → EReal) (bias : EReal) :
    (h * ((((((((z + interaction xs (bs 0)) + interaction xs (bs 1)) + interaction xs (bs 2))
          + interaction xs (bs 3)) + interaction xs (bs 4)) + interaction xs (bs 5)) + interaction xs (bs 6))
          + interaction xs (bs 7))
        + ∑ k, xs k * ws k) + bias
      = value z h xs bs ws bias := by
  unfold value
  rw [Fin.sum_univ_eight]
  simp only [add_assoc]

end Cert.Factorized

end
-- ==== Proof.Body.lean ====
/-
  The kernel body's result for one block of the output, read at an entry (p, q) of the block, at the extended
  reals. From the block's 512 rows of inputs `x0`, its 256 units' factor weights `x1` (eight rows per unit),
  linear weights `x2` and biases `x3`, the body forms, for each factor l, the product of the inputs with the
  transposed slab l of the weights and the product of the squared inputs with the transposed slab of the squared
  weights — each a sum over the 512 features —, adds (product² − product of squares) onto a running sum that starts
  at zero, halves it, adds the product with the transposed linear weights and then the bias row. Entry (p, q) is
  therefore the layer's value (Form.lean) of row p of the inputs and unit q's weights and bias.
-/
import proofs.«159963_j45629732553452_1_alg».proof.Proof.Gen.KernelIdeal.Frame
import proofs.«159963_j45629732553452_1_alg».proof.Proof.LibMatmul
import proofs.«159963_j45629732553452_1_alg».proof.Proof.LibFlat
import proofs.«159963_j45629732553452_1_alg».proof.Proof.LibRowOfColumn
import proofs.«159963_j45629732553452_1_alg».proof.Proof.Form
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Factorized

/-! ## The products -/

/-- Which operand entries the body's matrix product pairs at a contraction index: the left operand's at
    (row, k), the right operand's at (k, column). -/
theorem lhs_row (j : S512x256.Idx) (k : dot_S512x512_S512x256_S512x256_1_0_0_1_n_n.contr.Idx) : (dot_S512x512_S512x256_S512x256_1_0_0_1_n_n.lhsIdx j k 0).val = (j 0).val := by
  unfold DotDims.lhsIdx
  rw [dif_neg (show ¬(0 : Fin S512x512.rank) ∈ dot_S512x512_S512x256_S512x256_1_0_0_1_n_n.lhsBatch by decide),
    dif_pos (show (0 : Fin S512x512.rank) ∈ dot_S512x512_S512x256_S512x256_1_0_0_1_n_n.lhsNonContracting by decide)]
  rfl
theorem lhs_contr (j : S512x256.Idx) (k : dot_S512x512_S512x256_S512x256_1_0_0_1_n_n.contr.Idx) : (dot_S512x512_S512x256_S512x256_1_0_0_1_n_n.lhsIdx j k 1).val = (k ⟨0, by decide⟩).val :=
  dot_S512x512_S512x256_S512x256_1_0_0_1_n_n.lhsIdx_val_of_single rfl j k
theorem rhs_contr (j : S512x256.Idx) (k : dot_S512x512_S512x256_S512x256_1_0_0_1_n_n.contr.Idx) : (dot_S512x512_S512x256_S512x256_1_0_0_1_n_n.rhsIdx j k 0).val = (k ⟨0, by decide⟩).val :=
  dot_S512x512_S512x256_S512x256_1_0_0_1_n_n.rhsIdx_val_of_single rfl j k
theorem rhs_col (j : S512x256.Idx) (k : dot_S512x512_S512x256_S512x256_1_0_0_1_n_n.contr.Idx) : (dot_S512x512_S512x256_S512x256_1_0_0_1_n_n.rhsIdx j k 1).val = (j 1).val := by
  unfold DotDims.rhsIdx
  rw [dif_neg (show ¬(1 : Fin S512x256.rank) ∈ dot_S512x512_S512x256_S512x256_1_0_0_1_n_n.rhsBatch by decide),
    dif_pos (show (1 : Fin S512x256.rank) ∈ dot_S512x512_S512x256_S512x256_1_0_0_1_n_n.rhsNonContracting by decide)]
  rfl

/-- The product of the inputs with a transposed [256, 512] matrix, accumulated into zeros, at (p, q): the inner
    product of row p of the inputs with row q of the matrix. -/
theorem product_transposed (X : FVec Ideal S512x512 .bf16) (R : FVec Ideal S256x512 .bf16) (p : Fin 512) (q : Fin 256) :
    matmul dot_S512x512_S512x256_S512x256_1_0_0_1_n_n none X (transpose S512x256 [1, 0] R transposes_S256x512_p1_0_S512x256)
        (constant S512x256 .f32 0x00000000#32) (ix2 p q)
      = ∑ k : Fin 512, X (ix2 p k) * R (ix2 q k) := by
  refine (Cert.LibMatmul.matmul_zero_ix2 dot_S512x512_S512x256_S512x256_1_0_0_1_n_n none rfl rfl lhs_row lhs_contr rhs_contr rhs_col X _ (ix2 p q)).trans ?_
  refine Finset.sum_congr rfl fun k _ => ?_
  show X (ix2 p k) * transpose S512x256 [1, 0] R transposes_S256x512_p1_0_S512x256 (ix2 k q) = _
  rw [transpose_ix2_apply]

/-- Slab `l` of a [256, 8, 512] array, with its unit axis flattened away, at (q, k): the array at (q, l, k). -/
theorem slab_apply (B : FVec Ideal S256x8x512 .f32) (o : ℕ) (l : Fin 8) (hl : l.val = o)
    (hs : S256x8x512.Slices ![0, o, 0] S256x1x512) (q : Fin 256) (k : Fin 512) :
    (truncf .bf16 (shapeCast S256x512 (extractStridedSlice S256x1x512 ![0, o, 0] B hs) shapeCasts_S256x1x512_S256x512)
        bitsLt_bf16_f32 : FVec Ideal S256x512 .bf16) (ix2 q k) = B (ix3 q l k) := by
  rw [truncf_apply, Cert.LibFlat.shapeCast_a1c_ac_apply,
    slice3_axis1_apply o B hs q (0 : Fin 1) k l (by rw [hl]; rfl)]

/-- The product of (a change of format of) `X` with the transposed slab `l` of `B`, at (p, q): the inner product of
    row p of `X` with row (q, l) of `B`. -/
theorem slab_product (X : FVec Ideal S512x512 .f32) (B : FVec Ideal S256x8x512 .f32) (o : ℕ) (l : Fin 8) (hl : l.val = o)
    (hs : S256x8x512.Slices ![0, o, 0] S256x1x512) (p : Fin 512) (q : Fin 256) :
    matmul dot_S512x512_S512x256_S512x256_1_0_0_1_n_n none (truncf .bf16 X bitsLt_bf16_f32)
        (transpose S512x256 [1, 0]
          (truncf .bf16 (shapeCast S256x512 (extractStridedSlice S256x1x512 ![0, o, 0] B hs) shapeCasts_S256x1x512_S256x512)
            bitsLt_bf16_f32) transposes_S256x512_p1_0_S512x256)
        (constant S512x256 .f32 0x00000000#32) (ix2 p q)
      = ∑ k : Fin 512, X (ix2 p k) * B (ix3 q l k) := by
  rw [product_transposed]
  refine Finset.sum_congr rfl fun k _ => ?_
  rw [slab_apply B o l hl hs q k]
  rfl

/-- The product with the transposed linear weights, at (p, q). -/
theorem linear_product (X : FVec Ideal S512x512 .f32) (W : FVec Ideal S256x512 .f32) (p : Fin 512) (q : Fin 256) :
    matmul dot_S512x512_S512x256_S512x256_1_0_0_1_n_n none (truncf .bf16 X bitsLt_bf16_f32)
        (transpose S512x256 [1, 0] (truncf .bf16 W bitsLt_bf16_f32) transposes_S256x512_p1_0_S512x256)
        (constant S512x256 .f32 0x00000000#32) (ix2 p q)
      = ∑ k : Fin 512, X (ix2 p k) * W (ix2 q k) := by
  rw [product_transposed]
  rfl

/-- The bias column laid out as a row and repeated down the block, at (p, q): unit q's bias. -/
theorem bias_apply (x3 : FVec Ideal S256x1 .f32) (p : Fin 512) (q : Fin 256) :
    broadcastTo S512x256 (shapeCast S1x256 (shapeCast S256x1 x3 shapeCasts_S256x1_S256x1) shapeCasts_S256x1_S1x256)
        broadcasts_S1x256_S512x256 (ix2 p q) = x3 (ix2 q (0 : Fin 1)) := by
  rw [broadcastTo_1b_ab_apply, Cert.LibRowOfColumn.shapeCast_a1_1a_apply, shapeCast_self]

/-! ## The three stretches of the body -/

/-- Factor `l`'s contribution at (p, q), from the blocks. -/
abbrev contribution (x0 : Vec Ideal S512x512 .f32) (x1 : Vec Ideal S256x8x512 .f32) (p : Fin 512) (q : Fin 256) (l : Fin 8) : EReal :=
  interaction (fun k => x0 (ix2 p k)) (fun k => x1 (ix3 q l k))

/-- Factors 0 and 1 onto the zero the running sum starts from. -/
theorem first_apply (x0 : Vec Ideal S512x512 .f32) (x1 : Vec Ideal S256x8x512 .f32) (p : Fin 512) (q : Fin 256) :
    k0_pay6 (F := Ideal) x0 x1 (ix2 p q)
      = (Ideal.ofBits .f32 0x00000000#32 + contribution x0 x1 p q 0) + contribution x0 x1 p q 1 := by
  unfold k0_pay6 k0_pay3 k0_pay4 k0_pay5
  simp only [addf_apply, subf_apply, mulf_apply, broadcast_apply]
  rw [slab_product x0 x1 0 0 rfl, slab_product (mulf x0 x0) (mulf x1 x1) 0 0 rfl,
    slab_product x0 x1 1 1 rfl, slab_product (mulf x0 x0) (mulf x1 x1) 1 1 rfl]
  rfl

/-- Factors 2 to 5 onto a running sum. -/
theorem middle_apply (x0 : Vec Ideal S512x512 .f32) (x1 : Vec Ideal S256x8x512 .f32) (acc : FVec Ideal S512x256 .f32)
    (p : Fin 512) (q : Fin 256) :
    k0_pay9 (F := Ideal) x1 (k0_pay3 x0) (k0_pay4 x0) (k0_pay5 x1) acc (k0_pay7 x1) (k0_pay8 x1)
        (constant S512x256 .f32 0x00000000#32) (ix2 p q)
      = (((acc (ix2 p q) + contribution x0 x1 p q 2) + contribution x0 x1 p q 3) + contribution x0 x1 p q 4)
          + contribution x0 x1 p q 5 := by
  unfold k0_pay9 k0_pay3 k0_pay4 k0_pay7 k0_pay8 k0_pay5
  simp only [addf_apply, subf_apply, mulf_apply]
  rw [slab_product x0 x1 2 2 rfl, slab_product (mulf x0 x0) (mulf x1 x1) 2 2 rfl,
    slab_product x0 x1 3 3 rfl, slab_product (mulf x0 x0) (mulf x1 x1) 3 3 rfl,
    slab_product x0 x1 4 4 rfl, slab_product (mulf x0 x0) (mulf x1 x1) 4 4 rfl,
    slab_product x0 x1 5 5 rfl, slab_product (mulf x0 x0) (mulf x1 x1) 5 5 rfl]
  rfl

/-- Factors 6 and 7 onto a running sum, the halving, the linear part and the bias. -/
theorem last_apply (x0 : Vec Ideal S512x512 .f32) (x1 : Vec Ideal S256x8x512 .f32) (x2 : Vec Ideal S256x512 .f32)
    (x3 : Vec Ideal S256x1 .f32) (acc : FVec Ideal S512x256 .f32) (p : Fin 512) (q : Fin 256) :
    k0_pay1 (F := Ideal) x1 x2 (k0_pay2 x3) (k0_pay3 x0) (k0_pay4 x0) (k0_pay5 x1) acc (k0_pay10 (k0_pay5 x1))
        (k0_pay11 x1) (constant S512x256 .f32 0x00000000#32) (ix2 p q)
      = (Ideal.ofBits .f32 0x3F000000#32 * ((acc (ix2 p q) + contribution x0 x1 p q 6) + contribution x0 x1 p q 7)
          + ∑ k : Fin 512, x0 (ix2 p k) * x2 (ix2 q k)) + x3 (ix2 q (0 : Fin 1)) := by
  unfold k0_pay1 k0_pay2 k0_pay3 k0_pay4 k0_pay10 k0_pay11 k0_pay5
  simp only [addf_apply, subf_apply, mulf_apply, broadcast_apply]
  rw [slab_product x0 x1 6 6 rfl, slab_product (mulf x0 x0) (mulf x1 x1) 6 6 rfl,
    slab_product x0 x1 7 7 rfl, slab_product (mulf x0 x0) (mulf x1 x1) 7 7 rfl,
    linear_product x0 x2, bias_apply x3]
  rfl

/-! ## The block -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The output's one store covers its buffer, and every load reads a whole block: what the body leaves there is the
    stored value, as a function of the four blocks. -/
theorem out_eq (x0 : Vec Ideal S512x512 .f32) (x1 : Vec Ideal S256x8x512 .f32) (x2 : Vec Ideal S256x512 .f32)
    (x3 : Vec Ideal S256x1 .f32) :
    out0_4 (F := Ideal) x0 x1 x2 x3
      = k0_pay1 (F := Ideal) x1 x2 (k0_pay2 x3) (k0_pay3 x0) (k0_pay4 x0) (k0_pay5 x1)
          (k0_pay9 x1 (k0_pay3 x0) (k0_pay4 x0) (k0_pay5 x1) (k0_pay6 x0 x1) (k0_pay7 x1) (k0_pay8 x1)
            (constant S512x256 .f32 0x00000000#32))
          (k0_pay10 (k0_pay5 x1)) (k0_pay11 x1) (constant S512x256 .f32 0x00000000#32) := by
  unfold out0_4
  rw [View.canon_unit_zero zeros2]
  simp only [View.ld_unit_zero (S := S512x512) zeros2, View.ld_unit_zero (S := S256x8x512) zeros3,
    View.ld_unit_zero (S := S256x512) zeros2, View.ld_unit_zero (S := S256x1) zeros2]

/-- What the body leaves in the output's buffer, at (p, q): the layer's value of row p of the block of inputs and
    unit q's weights and bias. -/
theorem out_apply (x0 : Vec Ideal S512x512 .f32) (x1 : Vec Ideal S256x8x512 .f32) (x2 : Vec Ideal S256x512 .f32)
    (x3 : Vec Ideal S256x1 .f32) (p : Fin 512) (q : Fin 256) :
    out0_4 (F := Ideal) x0 x1 x2 x3 (ix2 p q)
      = value (Ideal.ofBits .f32 0x00000000#32) (Ideal.ofBits .f32 0x3F000000#32) (fun k => x0 (ix2 p k))
          (fun l k => x1 (ix3 q l k)) (fun k => x2 (ix2 q k)) (x3 (ix2 q (0 : Fin 1))) := by
  rw [out_eq, last_apply x0 x1 x2 x3 _ p q, middle_apply x0 x1 _ p q, first_apply x0 x1 p q]
  exact value_of_running_sum (Ideal.ofBits .f32 0x00000000#32) (Ideal.ofBits .f32 0x3F000000#32) (fun k => x0 (ix2 p k))
    (fun l k => x1 (ix3 q l k)) (fun k => x2 (ix2 q k)) (x3 (ix2 q (0 : Fin 1)))

end Cert.KernelIdeal.Body

end
-- ==== Proof.Layer.lean ====
/-
  The factorized layer over whole arrays: entry (b, u) of the result is the layer's value (Form.lean) of row b of the
  inputs X [4096, 512], unit u's eight rows of the factor weights B [1024, 8, 512], its row of the linear weights
  W [1024, 512] and its bias [1024]. The two constants are the single-precision words for 0 and 1/2, kept as words:
  both programs spell them the same way, so they are never evaluated.
-/
import proofs.«159963_j45629732553452_1_alg».proof.Proof.Form
import Idealize.ShloMosaic.Lib.ValueIdx

noncomputable section

namespace Cert.Factorized

open Idealize.ShloMosaic Idealize.ShloMosaic.ValueIdx

/-- Entry (b, u) of the layer. -/
def layerAt (X : (⟨2, ![4096, 512]⟩ : Shape).Idx → EReal) (B : (⟨3, ![1024, 8, 512]⟩ : Shape).Idx → EReal)
    (W : (⟨2, ![1024, 512]⟩ : Shape).Idx → EReal) (bias : (⟨1, ![1024]⟩ : Shape).Idx → EReal)
    (b : Fin 4096) (u : Fin 1024) : EReal :=
  value (Ideal.ofBits .f32 0x00000000#32) (Ideal.ofBits .f32 0x3F000000#32) (fun k => X (ix2 b k))
    (fun l k => B (ix3 u l k)) (fun k => W (ix2 u k)) (bias (ix1 u))

/-- The layer, index by index. -/
def layer (X : (⟨2, ![4096, 512]⟩ : Shape).Idx → EReal) (B : (⟨3, ![1024, 8, 512]⟩ : Shape).Idx → EReal)
    (W : (⟨2, ![1024, 512]⟩ : Shape).Idx → EReal) (bias : (⟨1, ![1024]⟩ : Shape).Idx → EReal) :
    (⟨2, ![4096, 1024]⟩ : Shape).Idx → EReal :=
  fun i => layerAt X B W bias (i 0) (i 1)

theorem layer_apply (X : (⟨2, ![4096, 512]⟩ : Shape).Idx → EReal) (B : (⟨3, ![1024, 8, 512]⟩ : Shape).Idx → EReal)
    (W : (⟨2, ![1024, 512]⟩ : Shape).Idx → EReal) (bias : (⟨1, ![1024]⟩ : Shape).Idx → EReal)
    (b : Fin 4096) (u : Fin 1024) : layer X B W bias (ix2 b u) = layerAt X B W bias b u := rfl

end Cert.Factorized

end
-- ==== Proof.Blocks.lean ====
/-
  From blocks to the array. The grid has 8 × 4 points; point t = (i, j) is handed rows [512·i, 512·i + 512) of the
  inputs, units [256·j, 256·j + 256) of the factor weights, of the linear weights and of the bias column, and writes
  back the [512, 256] block (i, j) of the output. Entry (p, q) of what the body leaves is the layer's value of row p
  of its block of inputs and of unit q of its block of weights (Body.lean), that is, of row 512·i + p of the inputs
  and unit 256·j + q: the block is block t of the layer of the whole argument arrays. The 32 blocks tile the
  [4096, 1024] output — entry (r, s) lies in block (r / 512, s / 256) —, so after the run the output array is the
  layer. The bias reaches the kernel as a [1024, 1] column, a cast of the bias vector made before the launch: its
  entry (u, 0) is the vector's entry u.
-/
import proofs.«159963_j45629732553452_1_alg».proof.Proof.Gen.KernelIdeal.Value
import proofs.«159963_j45629732553452_1_alg».proof.Proof.Body
import proofs.«159963_j45629732553452_1_alg».proof.Proof.Layer
import proofs.«159963_j45629732553452_1_alg».proof.Proof.LibRowOfColumn
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Factorized
open Idealize.ShloMosaic.Pipeline (Dat)

variable (m : (ℓ : Loc nD τ sig) → Buf (Elt Ideal) ℓ) (ρ : Dev nD → PrngReg)

/-! ## The index maps over the grid -/

/-- The printed index maps, decided over the 32 points: the inputs' block follows the output's block row, the
    weights', linear weights' and bias column's blocks follow its block column, every other block coordinate is 0,
    and the output's block coordinates stay within 8 × 4. -/
theorem idx_facts : ∀ t : Fin cfg0.N,
    win0_0.index t (0 : Fin 2) = win0_4.index t (0 : Fin 2) ∧ win0_0.index t (1 : Fin 2) = 0
    ∧ win0_1.index t (0 : Fin 3) = win0_4.index t (1 : Fin 2) ∧ win0_1.index t (1 : Fin 3) = 0
    ∧ win0_1.index t (2 : Fin 3) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 7 ∧ win0_4.index t (1 : Fin 2) ≤ 3 :=
  (by decide +kernel : ∀ t : Fin grid0.N, _)

/-- Every block of the output is some point's. -/
theorem idx_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

/-- The row of the inputs that row `p` of point `t`'s block is. -/
def row (t : Fin cfg0.N) (p : Fin 512) : Fin 4096 :=
  ⟨win0_4.index t (0 : Fin 2) * 512 + p.val, by
    have h := (idx_facts t).2.2.2.2.2.2.2.2.2.1
    have hp := p.isLt
    omega⟩

/-- The unit that unit `q` of point `t`'s block is. -/
def col (t : Fin cfg0.N) (q : Fin 256) : Fin 1024 :=
  ⟨win0_4.index t (1 : Fin 2) * 256 + q.val, by
    have h := (idx_facts t).2.2.2.2.2.2.2.2.2.2
    have hq := q.isLt
    omega⟩

/-! ## The blocks the body is handed, read off the argument arrays -/

/-- Entry (p, q) of the output's block at `t` is entry (row, col) of the array. -/
theorem emb_out (t : Fin cfg0.N) (p : Fin 512) (q : Fin 256) :
    ((cfg0.win 4).blk t).view.emb (ix2 p q) = ix2 (row t p) (col t q) := by
  funext a; apply Fin.ext
  match a with
  | ⟨0, _⟩ => show win0_4.index t (0 : Fin 2) * 512 + 1 * p.val = win0_4.index t (0 : Fin 2) * 512 + p.val; omega
  | ⟨1, _⟩ => show win0_4.index t (1 : Fin 2) * 256 + 1 * q.val = win0_4.index t (1 : Fin 2) * 256 + q.val; omega

/-- The block of inputs at `t`, at (p, k): the inputs at (row, k). -/
theorem read_inputs (c : Dev nD) (t : Fin cfg0.N) (p : Fin 512) (k : Fin 512) :
    iblk m c 0 t (ix2 p k) = m ((c : Thread nD τ).loc main_arg0) (ix2 (row t p) k) := by
  obtain ⟨e0, e1, -⟩ := idx_facts t
  rw [← V_main_arg0 m c]
  show V m c main_arg0 (((cfg0.win 0).blk t).view.emb (ix2 p k)) = V m c main_arg0 (ix2 (row t p) k)
  refine congrArg (V m c main_arg0) ?_
  funext a; apply Fin.ext
  match a with
  | ⟨0, _⟩ => show win0_0.index t (0 : Fin 2) * 512 + 1 * p.val = win0_4.index t (0 : Fin 2) * 512 + p.val; omega
  | ⟨1, _⟩ => show win0_0.index t (1 : Fin 2) * 512 + 1 * k.val = k.val; omega

/-- The block of factor weights at `t`, at (q, l, k): the weights at (col, l, k). -/
theorem read_factors (c : Dev nD) (t : Fin cfg0.N) (q : Fin 256) (l : Fin 8) (k : Fin 512) :
    iblk m c 1 t (ix3 q l k) = m ((c : Thread nD τ).loc main_arg1) (ix3 (col t q) l k) := by
  obtain ⟨-, -, e2, e3, e4, -⟩ := idx_facts t
  rw [← V_main_arg1 m c]
  show V m c main_arg1 (((cfg0.win 1).blk t).view.emb (ix3 q l k)) = V m c main_arg1 (ix3 (col t q) l k)
  refine congrArg (V m c main_arg1) ?_
  funext a; apply Fin.ext
  match a with
  | ⟨0, _⟩ => show win0_1.index t (0 : Fin 3) * 256 + 1 * q.val = win0_4.index t (1 : Fin 2) * 256 + q.val; omega
  | ⟨1, _⟩ => show win0_1.index t (1 : Fin 3) * 8 + 1 * l.val = l.val; omega
  | ⟨2, _⟩ => show win0_1.index t (2 : Fin 3) * 512 + 1 * k.val = k.val; omega

/-- The block of linear weights at `t`, at (q, k): the weights at (col, k). -/
theorem read_linear (c : Dev nD) (t : Fin cfg0.N) (q : Fin 256) (k : Fin 512) :
    iblk m c 2 t (ix2 q k) = m ((c : Thread nD τ).loc main_arg2) (ix2 (col t q) k) := by
  obtain ⟨-, -, -, -, -, e5, e6, -⟩ := idx_facts t
  rw [← V_main_arg2 m c]
  show V m c main_arg2 (((cfg0.win 2).blk t).view.emb (ix2 q k)) = V m c main_arg2 (ix2 (col t q) k)
  refine congrArg (V m c main_arg2) ?_
  funext a; apply Fin.ext
  match a with
  | ⟨0, _⟩ => show win0_2.index t (0 : Fin 2) * 256 + 1 * q.val = win0_4.index t (1 : Fin 2) * 256 + q.val; omega
  | ⟨1, _⟩ => show win0_2.index t (1 : Fin 2) * 512 + 1 * k.val = k.val; omega

/-- The bias column as the launch finds it: the bias vector cast to [1024, 1]. -/
theorem column_eq (c : Dev nD) :
    (V m c main_v0 : S1024x1.Idx → EReal) = shapeCast S1024x1 (m ((c : Thread nD τ).loc main_arg3)) shapeCasts_S1024_S1024x1 := by
  dsimp only [Gen.V, Gen.hostOps0]
  after_results
  rfl

/-- The block of the bias column at `t`, at (q, 0): the bias vector at col. -/
theorem read_bias (c : Dev nD) (t : Fin cfg0.N) (q : Fin 256) :
    iblk m c 3 t (ix2 q (0 : Fin 1)) = m ((c : Thread nD τ).loc main_arg3) (ix1 (col t q)) := by
  obtain ⟨-, -, -, -, -, -, -, e7, e8, -⟩ := idx_facts t
  rw [← Cert.LibRowOfColumn.shapeCast_a_a1_apply (m ((c : Thread nD τ).loc main_arg3)) shapeCasts_S1024_S1024x1 (col t q),
    ← column_eq m c]
  show V m c main_v0 (((cfg0.win 3).blk t).view.emb (ix2 q (0 : Fin 1))) = V m c main_v0 (ix2 (col t q) (0 : Fin 1))
  refine congrArg (V m c main_v0) ?_
  funext a; apply Fin.ext
  match a with
  | ⟨0, _⟩ => show win0_3.index t (0 : Fin 2) * 256 + 1 * q.val = win0_4.index t (1 : Fin 2) * 256 + q.val; omega
  | ⟨1, _⟩ => show win0_3.index t (1 : Fin 2) * 1 + 1 * 0 = 0; omega

/-! ## What a point writes back, the cover, and the array after the run -/

/-- What point `t` writes back is block `t` of the layer of the argument arrays. -/
theorem flushed_eq (c : Dev nD) (t : Fin cfg0.N) :
    (dats m 0 c).flushed 4 t = ((cfg0.win 4).blk t).view.read (Elt Ideal)
      (layer (m ((c : Thread nD τ).loc main_arg0)) (m ((c : Thread nD τ).loc main_arg1))
        (m ((c : Thread nD τ).loc main_arg2)) (m ((c : Thread nD τ).loc main_arg3))) := by
  rw [Cert.KernelIdeal.Value.flushed4]
  funext j
  obtain ⟨p, q, rfl⟩ : ∃ (p : Fin 512) (q : Fin 256), j = ix2 p q := ⟨j 0, j 1, eq_ix2 j⟩
  show out0_4 (iblk m c 0 t) (iblk m c 1 t) (iblk m c 2 t) (iblk m c 3 t) (ix2 p q)
    = layer (m ((c : Thread nD τ).loc main_arg0)) (m ((c : Thread nD τ).loc main_arg1))
        (m ((c : Thread nD τ).loc main_arg2)) (m ((c : Thread nD τ).loc main_arg3)) (((cfg0.win 4).blk t).view.emb (ix2 p q))
  rw [emb_out t p q, layer_apply]
  refine (Cert.KernelIdeal.Body.out_apply (iblk m c 0 t) (iblk m c 1 t) (iblk m c 2 t) (iblk m c 3 t) p q).trans ?_
  unfold layerAt
  simp only [read_inputs m c t p, read_factors m c t q, read_linear m c t q, read_bias m c t q]

/-- An index of the output is in point `t`'s block iff each coordinate is in the block's range on its axis. -/
theorem mem_blk (t : Fin cfg0.N) (i : S4096x1024.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v1).slice (win0_4.rect t)).set ↔ _
  rw [View.set_slice_whole, Rect.mem_set_unit]
  exact Iff.rfl

/-- Every entry of the output lies in some point's block: entry (r, s) in block (r / 512, s / 256). -/
theorem cover (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ := idx_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The output array after the run is the layer of the argument arrays. -/
theorem final (c : Dev nD) :
    (dats m 0 c).arrAt 4 cfg0.N = layer (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- Every weakly fair execution of the kernel's program terminates with the output array at the layer of the
    argument arrays, and the arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.Reference.lean ====
/-
  The reference computes the layer (Layer.lean). Read one operation at a time, entry (b, u) of its result is
  1/2 times (0 plus the sum over the eight factors of the square of the contraction of row b of the inputs with row
  (u, l) of the factor weights, less the contraction of the squared row with the squared weights), plus (the
  contraction of row b with row u of the transposed linear weights, plus unit u's bias): the layer's value, term
  for term.
-/
import proofs.«159963_j45629732553452_1_alg».proof.Proof.Gen.ReferenceIdeal.Read
import proofs.«159963_j45629732553452_1_alg».proof.Proof.Layer

noncomputable section

namespace Cert.ReferenceIdeal.Layer

open Cert.ReferenceIdeal Cert.ReferenceIdeal.Read Idealize.ShloMosaic Idealize.ShloMosaic.ValueIdx Cert.Factorized

/-! ## Which operand entries each operation reads at (b, u) -/

theorem factor_lhs (b : Fin 4096) (u : Fin 1024) (l : Fin 8) (k : Fin 512) :
    lidx_main_v0 (idx_main_v6 (ix2 b u) l) k = ix2 b k :=
  funext fun a => Fin.ext (by match a with | ⟨0, _⟩ => rfl | ⟨1, _⟩ => rfl)
theorem factor_rhs (b : Fin 4096) (u : Fin 1024) (l : Fin 8) (k : Fin 512) :
    ridx_main_v0 (idx_main_v6 (ix2 b u) l) k = ix3 u l k :=
  funext fun a => Fin.ext (by match a with | ⟨0, _⟩ => rfl | ⟨1, _⟩ => rfl | ⟨2, _⟩ => rfl)
theorem square_lhs (b : Fin 4096) (u : Fin 1024) (l : Fin 8) (k : Fin 512) :
    lidx_main_v3 (idx_main_v6 (ix2 b u) l) k = ix2 b k :=
  funext fun a => Fin.ext (by match a with | ⟨0, _⟩ => rfl | ⟨1, _⟩ => rfl)
theorem square_rhs (b : Fin 4096) (u : Fin 1024) (l : Fin 8) (k : Fin 512) :
    ridx_main_v3 (idx_main_v6 (ix2 b u) l) k = ix3 u l k :=
  funext fun a => Fin.ext (by match a with | ⟨0, _⟩ => rfl | ⟨1, _⟩ => rfl | ⟨2, _⟩ => rfl)
theorem linear_lhs (b : Fin 4096) (u : Fin 1024) (k : Fin 512) : lidx_main_v10 (ix2 b u) k = ix2 b k :=
  funext fun a => Fin.ext (by match a with | ⟨0, _⟩ => rfl | ⟨1, _⟩ => rfl)
theorem linear_rhs (b : Fin 4096) (u : Fin 1024) (k : Fin 512) : idx_main_v9 (ridx_main_v10 (ix2 b u) k) = ix2 u k :=
  funext fun a => Fin.ext (by match a with | ⟨0, _⟩ => rfl | ⟨1, _⟩ => rfl)
theorem bias_idx (b : Fin 4096) (u : Fin 1024) : idx_main_v11 (idx_main_v12 (ix2 b u)) = ix1 u :=
  funext fun a => Fin.ext (by match a with | ⟨0, _⟩ => rfl)

/-- The reference's result is the layer of its four arguments. -/
theorem result_eq (x0 : (⟨S4096x512, .f32⟩ : BufTy).Contents (Elt Ideal)) (x1 : (⟨S1024x8x512, .f32⟩ : BufTy).Contents (Elt Ideal))
    (x2 : (⟨S1024x512, .f32⟩ : BufTy).Contents (Elt Ideal)) (x3 : (⟨S1024, .f32⟩ : BufTy).Contents (Elt Ideal)) :
    val_main_v14 (F := Ideal) x0 x1 x2 x3 = layer x0 x1 x2 x3 := by
  funext i
  obtain ⟨b, u, rfl⟩ : ∃ (b : Fin 4096) (u : Fin 1024), i = ix2 b u := ⟨i 0, i 1, eq_ix2 i⟩
  rw [val_main_v14_apply, val_main_v8_apply, val_main_v7_apply, val_main_cst_0_apply, val_main_v6_apply,
    val_main_cst_apply, val_main_v13_apply, val_main_v10_apply, val_main_v12_apply, val_main_v11_apply, layer_apply]
  simp only [val_main_v5_apply, val_main_v4_apply, val_main_v3_apply, val_main_v0_apply, val_main_v1_apply,
    val_main_v2_apply, val_main_v9_apply, factor_lhs, factor_rhs, square_lhs, square_rhs, linear_lhs, linear_rhs,
    bias_idx]
  rfl

end Cert.ReferenceIdeal.Layer

end
-- ==== Proof.lean ====
/-
  The factorized layer: a Pallas kernel against its jnp reference, equal at the extended reals.

  Both programs compute, for a batch row b and a unit u,

      out[b, u] = 1/2 · Σ_l ( (Σ_k x[b,k] β[u,l,k])² − Σ_k x[b,k]² β[u,l,k]² ) + Σ_k x[b,k] W[u,k] + bias[u].

  The reference takes the two contractions over k as one product each with a [4096, 1024, 8] result, sums the eight
  differences over l from zero, halves, and adds (linear part + bias). The kernel walks an 8 × 4 grid of [512, 256]
  output blocks; for each it takes sixteen [512, 512] × [512, 256] products (one pair per factor l, against slab l
  of its block of weights and of their squares, transposed), adds the differences one after the other onto a zero
  block, halves, adds the product with the transposed linear weights and then the bias row. A change of float format
  is the identity on the extended reals and a product into a zero accumulator is the plain sum over k, so the two
  differ only in how the additions are grouped; addition of extended reals is associative (Form.lean), and the
  finiteness of the inputs is never used.

  Modules: Form.lean (the value at one (b, u) and the regrouping), Layer.lean (the layer over whole arrays),
  Reference.lean (the reference's result is the layer), Body.lean (the kernel body's block, entry by entry),
  Blocks.lean (the blocks tile the output: the kernel's result is the layer). The three frames are the generated
  ones (the reference's is its generated run with the result dropped); the kernel's idealization rewrote nothing.
-/
import proofs.«159963_j45629732553452_1_alg».proof.Defs
import proofs.«159963_j45629732553452_1_alg».proof.Proof.Gen.Kernel
import proofs.«159963_j45629732553452_1_alg».proof.Proof.Gen.Kernel.Skeleton
import proofs.«159963_j45629732553452_1_alg».proof.Proof.Gen.Kernel.Launch
import proofs.«159963_j45629732553452_1_alg».proof.Proof.Gen.Kernel.Points
import proofs.«159963_j45629732553452_1_alg».proof.Proof.Gen.Kernel.Frame
import proofs.«159963_j45629732553452_1_alg».proof.Proof.Gen.KernelIdeal
import proofs.«159963_j45629732553452_1_alg».proof.Proof.Gen.KernelIdeal.Skeleton
import proofs.«159963_j45629732553452_1_alg».proof.Proof.Gen.KernelIdeal.Launch
import proofs.«159963_j45629732553452_1_alg».proof.Proof.Gen.KernelIdeal.Points
import proofs.«159963_j45629732553452_1_alg».proof.Proof.Gen.KernelIdeal.Frame
import proofs.«159963_j45629732553452_1_alg».proof.Proof.Gen.ReferenceIdeal
import proofs.«159963_j45629732553452_1_alg».proof.Proof.Gen.Pre_finite_inputs
import proofs.«159963_j45629732553452_1_alg».proof.Proof.Gen.KernelIdeal.Value
import proofs.«159963_j45629732553452_1_alg».proof.Proof.Gen.ReferenceIdeal.Run
import proofs.«159963_j45629732553452_1_alg».proof.Proof.Gen.ReferenceIdeal.Read
import proofs.«159963_j45629732553452_1_alg».proof.Proof.Blocks
import proofs.«159963_j45629732553452_1_alg».proof.Proof.Reference
import Idealize.ShloMosaic.Adequacy
import Idealize.ShloMosaic.Init

noncomputable section

namespace Cert.Proof

open Idealize.ShloMosaic Idealize.ShloMosaic.TcCoe Idealize.SL.Sem

/-- The kernel at machine words runs and leaves its arguments as they were. -/
theorem frame_kernel : Cert.frame_Kernel := fun m ρ _ => Cert.Kernel.Gen.frame m ρ

/-- So does the kernel at the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel at the extended reals rewrote none of its operations: nothing to state. -/
theorem preserves : Cert.preserves_Kernel_KernelIdeal := trivial

/-- From memories that agree on the four arguments, the kernel's output array and the reference's result both end
    at the layer of those arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v14_eq _ _ _ _).trans (Cert.ReferenceIdeal.Layer.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
